-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S512x512 : Shape := ⟨2, ![512, 512]⟩
abbrev S512 : Shape := ⟨1, ![512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x256 .f32) (main_arg1 : FVec F S512x512 .f32) (main_arg2 : FVec F S512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x256 : Shape := ⟨2, ![1024, 256]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩
abbrev S128x256 : Shape := ⟨2, ![128, 256]⟩
abbrev S64x512 : Shape := ⟨2, ![64, 512]⟩
abbrev S64x1 : Shape := ⟨2, ![64, 1]⟩
abbrev S1x128 : Shape := ⟨2, ![1, 128]⟩
abbrev S64x256 : Shape := ⟨2, ![64, 256]⟩
abbrev S64x1x256 : Shape := ⟨3, ![64, 1, 256]⟩
abbrev S1x128x256 : Shape := ⟨3, ![1, 128, 256]⟩
abbrev S64x128x256 : Shape := ⟨3, ![64, 128, 256]⟩
abbrev S64x128 : Shape := ⟨2, ![64, 128]⟩
abbrev S1x64 : Shape := ⟨2, ![1, 64]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S512x512, .f32⟩
  | .hbm, ⟨2, _⟩ => ⟨S512, .f32⟩
  | .hbm, ⟨3, _⟩ => ⟨S512x1, .f32⟩
  | .hbm, ⟨4, _⟩ => ⟨S1x1024, .f32⟩
  | .hbm, ⟨5, _⟩ => ⟨S1024, .f32⟩
  | .local _ .vmem, ⟨0, _⟩ => ⟨S128x256, .f32⟩
  | .local _ .vmem, ⟨1, _⟩ => ⟨S128x256, .f32⟩
  | .local _ .vmem, ⟨2, _⟩ => ⟨S64x512, .f32⟩
  | .local _ .vmem, ⟨3, _⟩ => ⟨S64x512, .f32⟩
  | .local _ .vmem, ⟨4, _⟩ => ⟨S64x1, .f32⟩
  | .local _ .vmem, ⟨5, _⟩ => ⟨S64x1, .f32⟩
  | .local _ .vmem, ⟨6, _⟩ => ⟨S1x128, .f32⟩
  | .local _ .vmem, ⟨7, _⟩ => ⟨S1x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S512x1 : S512.ShapeCasts S512x1
  inb_S1x128_S1x128_0_0 : ∀ a, (![0, 0] : Fin 2 → Nat) a + S1x128.size a ≤ S1x128.size a
  h_S1x128 : 0 < S1x128.numel
  inb_S128x256_S128x256_0_0 : ∀ a, (![0, 0] : Fin 2 → Nat) a + S128x256.size a ≤ S128x256.size a
  h_S128x256 : 0 < S128x256.numel
  inb_S64x512_S64x512_0_0 : ∀ a, (![0, 0] : Fin 2 → Nat) a + S64x512.size a ≤ S64x512.size a
  h_S64x512 : 0 < S64x512.numel
  slices_S64x512_o0_0_S64x256 : S64x512.Slices ![0, 0] S64x256
  slices_S64x512_o0_256_S64x256 : S64x512.Slices ![0, 256] S64x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  reduces_S64x128x256_S64x128 : S64x128x256.Reduces [2] S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  shapeCasts_S1x128_S1x128 : S1x128.ShapeCasts S1x128
  shapeCasts_S1x1024_S1024 : S1x1024.ShapeCasts S1024
  dot_S1x64_S64x128_S1x128_1_0_0_1_n_n_wf : DotDims.WF S1x64 S64x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S512x512.size a
  hwx0_1 : ∀ i : grid0.Coords, EltTy.bits .f32 = 32 ∨ (Rect.block (s := S512x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S512x1.size a
  hwx0_2 : ∀ i : grid0.Coords, EltTy.bits .f32 = 32 ∨ (Rect.block (s := S512x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)

variable [Facts₀]

def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S512x512 : Shape := ⟨2, ![512, 512]⟩
abbrev S512 : Shape := ⟨1, ![512]⟩
abbrev S_ : Shape := ⟨0, ![]⟩
abbrev S1024x512 : Shape := ⟨2, ![1024, 512]⟩
abbrev S1x512x512 : Shape := ⟨3, ![1, 512, 512]⟩
abbrev S1024x1x512 : Shape := ⟨3, ![1024, 1, 512]⟩
abbrev S1024x512x512 : Shape := ⟨3, ![1024, 512, 512]⟩
abbrev S1x512 : Shape := ⟨2, ![1, 512]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1x512x512, .f32⟩
  | .hbm, ⟨16, _⟩ => ⟨S1024x1x512, .f32⟩
  | .hbm, ⟨17, _⟩ => ⟨S1024x512x512, .f32⟩
  | .hbm, ⟨18, _⟩ => ⟨S1024x512x512, .f32⟩
  | .hbm, ⟨19, _⟩ => ⟨S1024x512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S1x512x512, .f32⟩
  | .hbm, ⟨24, _⟩ => ⟨S1024x512x512, .f32⟩
  | .hbm, ⟨25, _⟩ => ⟨S1024x512x512, .f32⟩
  | .hbm, ⟨26, _⟩ => ⟨S_, .f32⟩
  | .hbm, ⟨27, _⟩ => ⟨S1024x512, .f32⟩
  | .hbm, ⟨28, _⟩ => ⟨S1x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S1024x256 : S_.BroadcastsInDim S1024x256 (![] : Fin 0 → Fin S1024x256.rank)
  concatenates_S1024x256_S1024x256_S1024x512_d1 : Shape.Concatenates [S1024x256, S1024x256] S1024x512 1
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  reducesTo_S1024x512_S1024_d1 : S1024x512.ReducesTo [1] S1024
  bcast_S_S1024 : S_.BroadcastsInDim S1024 (![] : Fin 0 → Fin S1024.rank)

variable [Facts₀]

class Facts : Prop extends Facts₀ where

variable [Facts]
-- ==== Proof.RuleSpec.lean ====
/-
  The value both programs compute, as one function of the three argument arrays, over the extended reals.

  For a batch row `b` and a rule `c`, literal `l` of the rule has the membership degree `μ = σ(conj c l)`
  (`σ` the logistic function) and contributes `μ · lit + (1 - μ)`, where the literal row of `b` is `x b`
  followed by `1 - x b`. The fit of the rule is the minimum of these 512 contributions, and the result at `b`
  is `5` plus the sum over the 512 rules of the rule's weight times its fit.

  Two laws are proved here, both valid at the infinities too (they use only that `min`, `+` and `·` are
  commutative and associative and that `1 · a = a`):
    * a minimum over the 512 literals is the minimum of the minima over the two halves of the row;
    * the sum over the first `64 (j+1)` rules is the sum over the first `64 j` plus the sum over the next 64.
-/
import Idealize.ShloMosaic.PureOps.Ideal
import Idealize.ShloMosaic.PureOps.IdealRules
import Idealize.ShloMosaic.Lib.ValueIdx

noncomputable section

open scoped BigOperators

namespace Cert.RuleSpec

open Idealize.ShloMosaic Idealize.ShloMosaic.ValueIdx

/-- The three words the programs spell: `1.0`, `+∞` (the start of every minimum) and `5.0` (the bias). -/
abbrev one : EReal := Ideal.ofBits .f32 0x3F800000#32
abbrev pinf : EReal := Ideal.ofBits .f32 0x7F800000#32
abbrev five : EReal := Ideal.ofBits .f32 0x40A00000#32

/-- The word `1.0` denotes the number one. -/
theorem one_eq : one = 1 := IdealRules.sign_bit.ideal_onePat .f32

abbrev XArr := FVec Ideal ⟨2, ![1024, 256]⟩ .f32
abbrev CArr := FVec Ideal ⟨2, ![512, 512]⟩ .f32
abbrev WArr := FVec Ideal ⟨1, ![512]⟩ .f32

/-- The membership degree of literal `l` in rule `c`. -/
def mu (cj : CArr) (c l : Fin 512) : EReal := Ideal.logistic (cj (ix2 c l))

/-- What a literal of value `v` contributes to rule `c` at position `l`: `μ · v + (1 - μ)`. -/
def pot (cj : CArr) (c l : Fin 512) (v : EReal) : EReal := mu cj c l * v + (one - mu cj c l)

/-- Position `v` of the first half of a literal row, and of the second half. -/
def lo (v : Fin 256) : Fin 512 := ⟨v.val, by omega⟩
def hi (v : Fin 256) : Fin 512 := ⟨256 + v.val, by omega⟩

/-- The literal row of batch row `b`: `x b`, then `1 - x b`. -/
def lit (x : XArr) (b : Fin 1024) (l : Fin 512) : EReal :=
  if h : l.val < 256 then x (ix2 b ⟨l.val, h⟩) else one - x (ix2 b ⟨l.val - 256, by omega⟩)

/-- The fit of rule `c` on row `b` as ONE minimum over the 512 literals … -/
def fitAll (x : XArr) (cj : CArr) (b : Fin 1024) (c : Fin 512) : EReal :=
  (Finset.univ : Finset (Fin 512)).fold min pinf fun l => pot cj c l (lit x b l)

/-- … and as the minimum of the minima over the two halves of the row. -/
def fitLo (x : XArr) (cj : CArr) (b : Fin 1024) (c : Fin 512) : EReal :=
  (Finset.univ : Finset (Fin 256)).fold min pinf fun v => pot cj c (lo v) (x (ix2 b v))
def fitHi (x : XArr) (cj : CArr) (b : Fin 1024) (c : Fin 512) : EReal :=
  (Finset.univ : Finset (Fin 256)).fold min pinf fun v => pot cj c (hi v) (one - x (ix2 b v))
def fit (x : XArr) (cj : CArr) (b : Fin 1024) (c : Fin 512) : EReal := min (fitLo x cj b c) (fitHi x cj b c)

/-- The two are one number: a bound is below every one of the 512 contributions exactly when it is below the
    256 of the first half and the 256 of the second. -/
theorem fitAll_eq_fit (x : XArr) (cj : CArr) (b : Fin 1024) (c : Fin 512) : fitAll x cj b c = fit x cj b c := by
  refine eq_of_forall_le_iff fun z => ?_
  unfold fitAll fit fitLo fitHi
  rw [le_min_iff, Finset.le_fold_min, Finset.le_fold_min, Finset.le_fold_min]
  constructor
  · rintro ⟨h0, h⟩
    refine ⟨⟨h0, fun v _ => ?_⟩, ⟨h0, fun v _ => ?_⟩⟩
    · have e : lit x b (lo v) = x (ix2 b v) := by
        unfold lit lo; rw [dif_pos (show v.val < 256 from v.isLt)]
      rw [← e]; exact h (lo v) (Finset.mem_univ _)
    · have e : lit x b (hi v) = one - x (ix2 b v) := by
        unfold lit hi
        rw [dif_neg (show ¬ (256 + v.val < 256) by omega)]
        exact congrArg (fun u => one - x (ix2 b u)) (Fin.ext (by show 256 + v.val - 256 = v.val; omega))
      rw [← e]; exact h (hi v) (Finset.mem_univ _)
  · rintro ⟨⟨h0, hA⟩, ⟨_, hB⟩⟩
    refine ⟨h0, fun l _ => ?_⟩
    by_cases hl : l.val < 256
    · have e : lit x b l = x (ix2 b ⟨l.val, hl⟩) := by unfold lit; rw [dif_pos hl]
      have e' : lo ⟨l.val, hl⟩ = l := Fin.ext rfl
      have := hA ⟨l.val, hl⟩ (Finset.mem_univ _)
      rw [e'] at this; rw [e]; exact this
    · have e : lit x b l = one - x (ix2 b ⟨l.val - 256, by omega⟩) := by unfold lit; rw [dif_neg hl]
      have e' : hi ⟨l.val - 256, by omega⟩ = l := Fin.ext (by show 256 + (l.val - 256) = l.val; omega)
      have := hB ⟨l.val - 256, by omega⟩ (Finset.mem_univ _)
      rw [e'] at this; rw [e]; exact this

/-- Rule `c`'s share of the result at row `b`: its weight times its fit. -/
def term (x : XArr) (cj : CArr) (w : WArr) (b : Fin 1024) (c : Fin 512) : EReal := w (ix1 c) * fit x cj b c

/-- The same indexed by a natural number (zero past the last rule), so that runs of rules are ranges. -/
def termN (x : XArr) (cj : CArr) (w : WArr) (b : Fin 1024) (n : ℕ) : EReal :=
  if h : n < 512 then term x cj w b ⟨n, h⟩ else 0

/-- The bias plus the shares of the first `N` rules. -/
def partialSum (x : XArr) (cj : CArr) (w : WArr) (b : Fin 1024) (N : ℕ) : EReal :=
  five + ∑ n ∈ Finset.range N, termN x cj w b n

/-- THE RESULT: at row `b`, the bias plus the shares of all 512 rules. -/
def G (x : XArr) (cj : CArr) (w : WArr) : FVec Ideal ⟨1, ![1024]⟩ .f32 :=
  fun i => partialSum x cj w ⟨(i 0).val, (i 0).isLt⟩ 512

theorem partialSum_zero (x : XArr) (cj : CArr) (w : WArr) (b : Fin 1024) : partialSum x cj w b 0 = five := by
  unfold partialSum; rw [Finset.range_zero, Finset.sum_empty, add_zero]

/-- All 512 shares as a sum over the rules themselves. -/
theorem partialSum_full (x : XArr) (cj : CArr) (w : WArr) (b : Fin 1024) :
    partialSum x cj w b 512 = five + ∑ c : Fin 512, term x cj w b c := by
  unfold partialSum
  rw [Finset.sum_range]
  refine congrArg (five + ·) (Finset.sum_congr rfl fun c _ => ?_)
  unfold termN; rw [dif_pos c.isLt]

/-- One more block of 64 rules, each share spelt as the kernel computes it (`1 · (fit · weight)`). -/
theorem partialSum_step (x : XArr) (cj : CArr) (w : WArr) (b : Fin 1024) (j : ℕ) (hj : j < 8) :
    partialSum x cj w b (64 * j)
        + ∑ k : Fin 64, one * (fit x cj b ⟨64 * j + k.val, by have := k.isLt; omega⟩
            * w (ix1 (⟨64 * j + k.val, by have := k.isLt; omega⟩ : Fin 512)))
      = partialSum x cj w b (64 * (j + 1)) := by
  have key : (∑ k : Fin 64, one * (fit x cj b ⟨64 * j + k.val, by have := k.isLt; omega⟩
        * w (ix1 (⟨64 * j + k.val, by have := k.isLt; omega⟩ : Fin 512))))
      = ∑ k : Fin 64, termN x cj w b (64 * j + k.val) :=
    Finset.sum_congr rfl fun k _ => by
      have hk : 64 * j + k.val < 512 := by have := k.isLt; omega
      unfold termN term
      rw [dif_pos hk, one_eq, one_mul, mul_comm]
  unfold partialSum
  rw [key, ← Finset.sum_range (fun n => termN x cj w b (64 * j + n)), add_assoc, ← Finset.sum_range_add,
    show 64 * j + 64 = 64 * (j + 1) by ring]

end Cert.RuleSpec

end
-- ==== Proof.RuleRef.lean ====
/-
  The reference computes the specified value.

  Read one operation at a time, the reference's result at batch row `b` is `5 + (0 + Σ_c w c · m b c)`, where
  `m b c` is the minimum over the 512 literals `l` of `s c l · row b l + (1 - s c l)`; `s c l` is
  `1 / (1 + exp (-conj c l))`, which is the logistic function of `conj c l` by definition, and `row b` is the
  concatenation of `x b` and `1 - x b`, which is the specification's literal row. So the minimum is the
  specification's one minimum over the row, and that is the minimum of the two half-row minima.
-/
import proofs.«144816_j57303453663343_2_alg».proof.Proof.RefReadPatched
import proofs.«144816_j57303453663343_2_alg».proof.Proof.RuleSpec
import Idealize.ShloMosaic.Lib.Pipeline.Value
import Idealize.ShloMosaic.Lib.ValueIdx
import Idealize.ShloMosaic.PureOps.Ideal.Laws

noncomputable section

open scoped BigOperators

namespace Cert.RuleRef

open Cert.ReferenceIdeal Cert.ReferenceIdeal.Gen Cert.ReferenceIdeal.ReadP
open Idealize.ShloMosaic Idealize.ShloMosaic.ValueIdx Cert.RuleSpec

/-- The word `1.0` denotes one, spelt as the operations print it. -/
theorem ofBits_one : Ideal.ofBits .f32 0x3F800000#32 = (1 : EReal) := one_eq

/-- The concatenated row at position `l` is the literal row: `x b l` in the first half, `1 - x b (l - 256)` in
    the second. -/
theorem row_eq (x0 : XArr) (b : Fin 1024) (l : Fin 512) : val_main_v8 (F := Ideal) x0 (ix2 b l) = lit x0 b l := by
  unfold val_main_v8 lit
  by_cases hl : l.val < 256
  · rw [dif_pos hl]
    exact concatenate_pair_apply_left _ x0 (val_main_v7 (F := Ideal) x0) concatenates_S1024x256_S1024x256_S1024x512_d1
      (ix2 b l) rfl (ix2 b ⟨l.val, hl⟩) (fun a => by match a with | ⟨0, _⟩ => rfl | ⟨1, _⟩ => rfl)
  · rw [dif_neg hl]
    refine (concatenate_pair_apply_right _ x0 (val_main_v7 (F := Ideal) x0) concatenates_S1024x256_S1024x256_S1024x512_d1
      (ix2 b l) rfl rfl (ix2 b ⟨l.val - 256, by omega⟩) (fun a ha => ?_) ?_).trans ?_
    · match a with
      | ⟨0, _⟩ => rfl
      | ⟨1, _⟩ => exact absurd rfl ha
    · show (l.val - 256) + 256 = l.val
      omega
    · rw [val_main_v7_apply, val_main_v6_apply, val_main_cst_1_apply]
      rfl

/-- One contribution: the reference's `s · row + (1 - s)` at `(b, c, l)` is the specification's. -/
theorem contrib_eq (x0 : XArr) (x1 : CArr) (b : Fin 1024) (c l : Fin 512) :
    val_main_v18 (F := Ideal) x0 x1 (ix3 b c l) = pot x1 c l (lit x0 b l) := by
  have e1 : idx_main_v9 (idx_main_v11 (ix3 b c l)) = ix2 c l :=
    funext fun a => Fin.ext (by match a with | ⟨0, _⟩ => rfl | ⟨1, _⟩ => rfl)
  have e2 : idx_main_v16 (idx_main_v17 (ix3 b c l)) = ix2 c l :=
    funext fun a => Fin.ext (by match a with | ⟨0, _⟩ => rfl | ⟨1, _⟩ => rfl)
  have e3 : idx_main_v10 (idx_main_v12 (ix3 b c l)) = ix2 b l :=
    funext fun a => Fin.ext (by match a with | ⟨0, _⟩ => rfl | ⟨1, _⟩ => rfl)
  simp only [val_main_v18_apply, val_main_v13_apply, val_main_v11_apply, val_main_v9_apply, val_main_v12_apply,
    val_main_v10_apply, val_main_v17_apply, val_main_v16_apply, val_main_v15_apply, val_main_v14_apply,
    val_main_cst_2_apply, val_main_v5_apply, val_main_v4_apply, val_main_cst_0_apply, val_main_v3_apply,
    val_main_v2_apply, val_main_cst_apply, val_main_v1_apply, val_main_v0_apply, e1, e2, e3, row_eq]
  simp only [Ideal.addf_def, Ideal.subf_def, Ideal.mulf_def, Ideal.hostDivf_def, Ideal.hostUnary_exp_def,
    Ideal.hostNegf_def, Ideal.negf_def, Ideal.ofBits_def, ofBits_one]
  unfold pot mu Ideal.logistic
  rw [one_eq]

/-- The reference's minimum at `(b, c)` is the fit of rule `c` on row `b`. -/
theorem min_eq (x0 : XArr) (x1 : CArr) (b : Fin 1024) (c : Fin 512) :
    val_main_v19 (F := Ideal) x0 x1 (ix2 b c) = fit x0 x1 b c := by
  rw [← fitAll_eq_fit]
  unfold val_main_v19
  have hR : S1024x512x512.Reduces [2] S1024x512 := by decide
  have hl : ∀ l : Fin 512, hR.lift (ix2 b c) l = ix3 b c l := fun l =>
    funext fun a => Fin.ext (by match a with | ⟨0, _⟩ => rfl | ⟨1, _⟩ => rfl | ⟨2, _⟩ => rfl)
  have hc : ∀ l : Fin 512, val_main_v18 (F := Ideal) x0 x1 (hR.lift (ix2 b c) l) = pot x1 c l (lit x0 b l) :=
    fun l => by rw [hl l]; exact contrib_eq x0 x1 b c l
  generalize val_main_v18 (F := Ideal) x0 x1 = y at hc ⊢
  have key := Host.reduce_eq_fold_single (s := S1024x512x512) (t := S1024x512) (a := (2 : Fin 3)) (u := S_)
    (FloatOps.minimumf (F := Ideal) (φ := .f32)) y (val_main_cst_3 (F := Ideal))
    reducesTo_S1024x512x512_S1024x512_d2 hR h_S_ (ix2 b c)
  refine key.trans ?_
  unfold fitAll
  show (Finset.univ : Finset (Fin 512)).fold min pinf (fun l => y (hR.lift (ix2 b c) l)) = _
  exact Finset.fold_congr fun l _ => hc l

/-- THE REFERENCE IS THE SPECIFICATION: its last stage, as a function of the three arrays, is `G`. -/
theorem ref_eq (x0 : XArr) (x1 : CArr) (x2 : WArr) : val_main_v25 (F := Ideal) x0 x1 x2 = G x0 x1 x2 := by
  funext i
  obtain ⟨b, rfl⟩ : ∃ b : Fin 1024, i = ix1 b := ⟨i 0, eq_ix1 i⟩
  have e23 : ∀ k : Fin 512, idx_main_v23 (ix1 b) k = ix2 b k := fun k =>
    funext fun a => Fin.ext (by match a with | ⟨0, _⟩ => rfl | ⟨1, _⟩ => rfl)
  have e20 : ∀ k : Fin 512, idx_main_v20 (idx_main_v21 (ix2 b k)) = ix1 k := fun k =>
    funext fun a => Fin.ext (by match a with | ⟨0, _⟩ => rfl)
  rw [val_main_v25_apply, val_main_v24_apply, val_main_cst_5_apply, val_main_v23_apply, val_main_cst_4_apply]
  show five + (Ideal.ofBits .f32 0x00000000#32 + ∑ k : Fin 512, val_main_v22 (F := Ideal) x0 x1 x2 (idx_main_v23 (ix1 b) k))
    = partialSum x0 x1 x2 b 512
  rw [Ideal.ofBits_zero_f32, zero_add, partialSum_full]
  refine congrArg (five + ·) (Finset.sum_congr rfl fun k _ => ?_)
  rw [e23 k, val_main_v22_apply, val_main_v21_apply, val_main_v20_apply, e20 k, min_eq]
  rfl

end Cert.RuleRef

end
-- ==== Proof.RuleCases.lean ====
/-
  What one grid point leaves in the output's staging buffer, in each of the body's two control cases.

  The body first, at the first reduction step only, stores the bias row; then it loads the three input blocks and the
  output row as it then stands, and stores the output row plus the block's partial sums. Every buffer is read and
  written whole, so the one or two stores cover the row and what the buffer ends holding is the last store's value:
    * not the first step: `out + P`, with `out` what the buffer held on entry;
    * the first step:     `bias + P`, the read-back of the bias store being the bias row.
  Here `P` is the matmul payload of the three input blocks.
-/
import proofs.«144816_j57303453663343_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RuleCases

open Cert.KernelIdeal Cert.KernelIdeal.Gen

variable {F : FTy → Type} [FloatOps F]

theorem hz : (![0, 0] : Fin 2 → Nat) = fun _ => 0 := funext fun a => by fin_cases a <;> rfl

/-- Not the first reduction step: the buffer, holding `xo3` on entry, ends at `xo3 + P`. -/
theorem out_B (c : Dev nD) (i : grid0.Coords) (arg2 : Memref sig .tc .vmem S128x256 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x128 .f32) (harg5 : arg5.IsWhole) (hc0 : ¬cond0_0 i)
    (x0 : Vec F S128x256 .f32) (x1 : Vec F S64x512 .f32) (x2 : Vec F S64x1 .f32) (xo3 : Vec F S1x128 .f32) :
    out0_B_3 c i arg2 harg2 arg3 harg3 arg4 harg4 arg5 harg5 hc0 x0 x1 x2 xo3 = k0_pay1 (k0_pay3 x0 x1 x2) xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz]
  simp only [View.readAt_eq_ld, harg2.read_unread, harg3.read_unread, harg4.read_unread, harg5.read_unread,
    View.ld_unit_zero (S := S128x256) hz, View.ld_unit_zero (S := S64x512) hz, View.ld_unit_zero (S := S64x1) hz,
    View.ld_unit_zero (S := S1x128) hz]

/-- The first reduction step: the buffer ends at `bias + P`. -/
theorem out_A (c : Dev nD) (i : grid0.Coords) (arg2 : Memref sig .tc .vmem S128x256 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x128 .f32) (harg5 : arg5.IsWhole) (hc0 : cond0_0 i)
    (x0 : Vec F S128x256 .f32) (x1 : Vec F S64x512 .f32) (x2 : Vec F S64x1 .f32) :
    out0_A_3 c i arg2 harg2 arg3 harg3 arg4 harg4 arg5 harg5 hc0 x0 x1 x2
      = k0_pay1 (k0_pay3 x0 x1 x2) (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x128) hz, View.readCov_unit_zero (S := S1x128) _ hz]
  simp only [View.readAt_eq_ld, harg2.read_unread, harg3.read_unread, harg4.read_unread,
    View.ld_unit_zero (S := S128x256) hz, View.ld_unit_zero (S := S64x512) hz, View.ld_unit_zero (S := S64x1) hz]

end Cert.KernelIdeal.RuleCases

end
-- ==== Proof.RuleLayout.lean ====
/-
  Three layout facts the kernel's block arithmetic uses, each read at an index written by coordinates.

  The body forms `μ[c, v] · x[b, v]` on a `[rules, rows, literals]` tensor by giving the `[rules, literals]` factor a
  unit middle axis and the `[rows, literals]` factor a unit leading axis, and broadcasting both. Read at
  `(c, b, v)` the first is the factor at `(c, v)`, the second the factor at `(b, v)`. The weights arrive as a
  `[rules, 1]` column broadcast along the rows: at `(c, b)` it is the column at `(c, 0)`.
-/
import Idealize.ShloMosaic.Lib.Pipeline.Value
import Idealize.ShloMosaic.Lib.ValueIdx
import Idealize.ShloMosaic.Lib.ValueLayout

noncomputable section

namespace Cert.RuleLayout

open Idealize.ShloMosaic Idealize.ShloMosaic.ValueIdx

variable {α : Type}

/-- An `[a, b]` array given a unit middle axis and broadcast to `[a, c, b]` reads, at `(i, p, j)`, the array at `(i, j)`. -/
theorem midBroadcast_apply {a b c : ℕ} (x : (⟨2, ![a, b]⟩ : Shape).Idx → α)
    (h1 : (⟨2, ![a, b]⟩ : Shape).ShapeCasts ⟨3, ![a, 1, b]⟩) (h2 : (⟨3, ![a, 1, b]⟩ : Shape).Broadcasts ⟨3, ![a, c, b]⟩)
    (i : Fin a) (p : Fin c) (j : Fin b) :
    broadcastTo ⟨3, ![a, c, b]⟩ (shapeCast ⟨3, ![a, 1, b]⟩ x h1) h2 (ix3 i p j) = x (ix2 i j) := by
  refine (broadcastTo_apply _ h2 (ix3 i p j) (ix3 i (0 : Fin 1) j) fun ax => ?_).trans ?_
  · match ax with
    | ⟨0, _⟩ =>
      show i.val = if a = 1 then 0 else i.val
      split
      · have := i.isLt; omega
      · rfl
    | ⟨1, _⟩ => rfl
    | ⟨2, _⟩ =>
      show j.val = if b = 1 then 0 else j.val
      split
      · have := j.isLt; omega
      · rfl
  · exact shapeCast_apply x h1 _ _ (by
      rw [Shape.rowMajor_val_three, Shape.rowMajor_val_two]
      show i.val * b + j.val = (i.val * 1 + 0) * b + j.val
      rw [Nat.mul_one, Nat.add_zero])

/-- An `[a, b]` array given a unit leading axis and broadcast to `[c, a, b]` reads, at `(p, i, j)`, the array at `(i, j)`. -/
theorem leadBroadcast_apply {a b c : ℕ} (x : (⟨2, ![a, b]⟩ : Shape).Idx → α)
    (h1 : (⟨2, ![a, b]⟩ : Shape).ShapeCasts ⟨3, ![1, a, b]⟩) (h2 : (⟨3, ![1, a, b]⟩ : Shape).Broadcasts ⟨3, ![c, a, b]⟩)
    (p : Fin c) (i : Fin a) (j : Fin b) :
    broadcastTo ⟨3, ![c, a, b]⟩ (shapeCast ⟨3, ![1, a, b]⟩ x h1) h2 (ix3 p i j) = x (ix2 i j) := by
  refine (broadcastTo_apply _ h2 (ix3 p i j) (ix3 (0 : Fin 1) i j) fun ax => ?_).trans ?_
  · match ax with
    | ⟨0, _⟩ => rfl
    | ⟨1, _⟩ =>
      show i.val = if a = 1 then 0 else i.val
      split
      · have := i.isLt; omega
      · rfl
    | ⟨2, _⟩ =>
      show j.val = if b = 1 then 0 else j.val
      split
      · have := j.isLt; omega
      · rfl
  · exact shapeCast_ab_1ab_apply x h1 (0 : Fin 1) i j

/-- An `[a, 1]` column broadcast to `[a, b]` reads, at `(i, j)`, the column at `(i, 0)`. -/
theorem colBroadcast_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.RuleLayout

end
-- ==== Proof.RulePayload.lean ====
/-
  The kernel's arithmetic at one grid point, read at an index.

  At a point the body holds a `[128, 256]` block of rows `xb`, a `[64, 512]` block of rules `cb` and the `[64, 1]`
  column `wb` of their weights. It forms, for rule `k` of the block, row `q` of the block and literal position `v`,
  `σ(cb k v) · xb q v + (1 - σ(cb k v))` over the first half of the rule's literals and
  `σ(cb k (256 + v)) · (1 - xb q v) + (1 - σ(cb k (256 + v)))` over the second, takes the minimum of each over `v`
  and then of the two, scales by `wb k`, and sums over the 64 rules by multiplying with a row of ones into a zero
  accumulator: `Σ_k 1 · (fit k q · wb k)`. When the blocks are the rows from `b0` and the rules from `c0` of the
  whole arrays, this is the shares of rules `c0 … c0 + 63` at row `b0 + q`, each spelt `1 · (fit · weight)`.
-/
import proofs.«144816_j57303453663343_2_alg».proof.Proof.Gen.KernelIdeal.Skeleton
import proofs.«144816_j57303453663343_2_alg».proof.Proof.RuleSpec
import proofs.«144816_j57303453663343_2_alg».proof.Proof.RuleLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RulePayload

open Cert.KernelIdeal Cert.KernelIdeal.Gen
open Idealize.ShloMosaic Idealize.ShloMosaic.ValueIdx Cert.RuleSpec Cert.RuleLayout

/-- A minimum along the literal axis of a `[64, 128, 256]` tensor, from `+∞`: at `(k, q)` the minimum over `v` of
    the tensor at `(k, q, v)`. -/
theorem laneMin_apply (src : FVec Ideal S64x128x256 .f32) (h : S64x128x256.Reduces [2] S64x128) (hφ : FKind.Formats .f32)
    (hacc : (0x7F800000#32 : BitVec 32) = FKind.minimumf.neutral .f32 hφ) (k : Fin 64) (q : Fin 128) :
    multiReduction .minimumf [2] S64x128 src 0x7F800000#32 h hφ hacc (ix2 k q)
      = (Finset.univ : Finset (Fin 256)).fold min pinf fun v => src (ix3 k q v) := by
  refine (multiReduction_minimumf_eq_fold src _ h hφ hacc (ix2 k q)).trans ?_
  refine (h.fold_filter_drop_single _ _ src (ix2 k q)).trans ?_
  show (Finset.univ : Finset (Fin 256)).fold min pinf (fun v => src (h.lift (ix2 k q) v)) = _
  refine Finset.fold_congr fun v _ => congrArg src ?_
  exact funext fun a => Fin.ext (by match a with | ⟨0, _⟩ => rfl | ⟨1, _⟩ => rfl | ⟨2, _⟩ => rfl)

/-- The tensor of contributions: a `[64, 256]` factor `s` against a `[128, 256]` factor `y`, plus `c1 - s`, read at
    `(k, q, v)`. -/
theorem potTensor_apply (s : FVec Ideal S64x256 .f32) (y : FVec Ideal S128x256 .f32) (c1 : Ideal .f32)
    (h1 : S64x256.ShapeCasts S64x1x256) (h2 : S64x1x256.Broadcasts S64x128x256)
    (h3 : S128x256.ShapeCasts S1x128x256) (h4 : S1x128x256.Broadcasts S64x128x256)
    (k : Fin 64) (q : Fin 128) (v : Fin 256) :
    addf (mulf (broadcastTo S64x128x256 (shapeCast S64x1x256 s h1) h2) (broadcastTo S64x128x256 (shapeCast S1x128x256 y h3) h4))
        (broadcastTo S64x128x256 (shapeCast S64x1x256 (subf (broadcast S64x256 c1) s) h1) h2) (ix3 k q v)
      = s (ix2 k v) * y (ix2 q v) + (c1 - s (ix2 k v)) := by
  refine (addf_apply _ _ _).trans ?_
  refine congrArg₂ (· + ·) ((mulf_apply _ _ _).trans (congrArg₂ (· * ·) ?_ ?_)) ?_
  · exact midBroadcast_apply s h1 h2 k q v
  · exact leadBroadcast_apply y h3 h4 k q v
  · exact (midBroadcast_apply _ h1 h2 k q v).trans rfl

/-- A row of ones times a `[64, 128]` matrix into a zero accumulator: at `(0, q)` the sum over the 64 rows `k` of
    `1 · W k q`. -/
theorem onesMatmul_apply (W : FVec Ideal S64x128 .f32) (q : Fin 128) :
    matmul dot_S1x64_S64x128_S1x128_1_0_0_1_n_n none (broadcast S1x64 (Scalar.ofBits (F := Ideal) .f32 0x3F800000#32)) W
        (constant S1x128 .f32 0x00000000#32) (ix2 (0 : Fin 1) q)
      = ∑ k : Fin 64, one * W (ix2 k q) := by
  refine (Ideal.matmul_constant_zero_apply dot_S1x64_S64x128_S1x128_1_0_0_1_n_n none _ W (ix2 (0 : Fin 1) q)).trans ?_
  rw [← Equiv.sum_comp (contrEquiv1 dot_S1x64_S64x128_S1x128_1_0_0_1_n_n 64 rfl rfl).symm]
  refine Finset.sum_congr rfl fun k _ => congrArg (one * ·) (congrArg W ?_)
  refine funext fun a => Fin.ext ?_
  match a with
  | ⟨0, _⟩ =>
    exact (dot_S1x64_S64x128_S1x128_1_0_0_1_n_n.rhsIdx_val_of_single (cr := (0 : Fin 2)) rfl _ _).trans
      (contrEquiv1_symm_val dot_S1x64_S64x128_S1x128_1_0_0_1_n_n 64 rfl rfl k)
  | ⟨1, _⟩ => rfl

/-- The body's matmul payload at `(0, q)`, over blocks that are rows `b0 …` and rules `c0 …` of the whole arrays:
    the shares of the block's 64 rules at row `b0 + q`. -/
theorem pay3_apply (x : XArr) (cj : CArr) (w : WArr) (xb : Vec Ideal S128x256 .f32) (cb : Vec Ideal S64x512 .f32)
    (wb : Vec Ideal S64x1 .f32) (b0 c0 : ℕ) (hb0 : b0 + 128 ≤ 1024) (hc0 : c0 + 64 ≤ 512)
    (hx : ∀ (q : Fin 128) (v : Fin 256), xb (ix2 q v) = x (ix2 (⟨b0 + q.val, by have := q.isLt; omega⟩ : Fin 1024) v))
    (hc : ∀ (k : Fin 64) (l : Fin 512), cb (ix2 k l) = cj (ix2 (⟨c0 + k.val, by have := k.isLt; omega⟩ : Fin 512) l))
    (hw : ∀ k : Fin 64, wb (ix2 k (0 : Fin 1)) = w (ix1 (⟨c0 + k.val, by have := k.isLt; omega⟩ : Fin 512)))
    (q : Fin 128) :
    k0_pay3 (F := Ideal) xb cb wb (ix2 (0 : Fin 1) q)
      = ∑ k : Fin 64, one * (fit x cj ⟨b0 + q.val, by have := q.isLt; omega⟩ ⟨c0 + k.val, by have := k.isLt; omega⟩
          * w (ix1 (⟨c0 + k.val, by have := k.isLt; omega⟩ : Fin 512))) := by
  unfold k0_pay3
  dsimp only
  refine (onesMatmul_apply _ q).trans ?_
  refine Finset.sum_congr rfl fun k _ => congrArg (one * ·) ?_
  refine (mulf_apply _ _ _).trans (congrArg₂ (· * ·) ?_ ?_)
  · refine (minimumf_apply _ _ _).trans (congrArg₂ min ?_ ?_)
    · refine (laneMin_apply _ _ _ _ k q).trans ?_
      unfold fitLo
      refine Finset.fold_congr fun v _ => ?_
      refine (potTensor_apply _ _ _ _ _ _ _ k q v).trans ?_
      have e : extractStridedSlice S64x256 ![0, 0] (logistic (F := Ideal) (φ := .f32) cb) slices_S64x512_o0_0_S64x256 (ix2 k v)
          = mu cj ⟨c0 + k.val, by have := k.isLt; omega⟩ (lo v) := by
        refine (slice2_axis1_apply 0 (logistic (F := Ideal) (φ := .f32) cb) slices_S64x512_o0_0_S64x256 k v (lo v) (by simp [lo])).trans ?_
        show Ideal.logistic (cb (ix2 k (lo v))) = _
        rw [hc k (lo v)]
        rfl
      rw [e, hx q v]
      rfl
    · refine (laneMin_apply _ _ _ _ k q).trans ?_
      unfold fitHi
      refine Finset.fold_congr fun v _ => ?_
      refine (potTensor_apply _ _ _ _ _ _ _ k q v).trans ?_
      have e : extractStridedSlice S64x256 ![0, 256] (logistic (F := Ideal) (φ := .f32) cb) slices_S64x512_o0_256_S64x256 (ix2 k v)
          = mu cj ⟨c0 + k.val, by have := k.isLt; omega⟩ (hi v) := by
        refine (slice2_axis1_apply 256 (logistic (F := Ideal) (φ := .f32) cb) slices_S64x512_o0_256_S64x256 k v (hi v) (by simp [hi])).trans ?_
        show Ideal.logistic (cb (ix2 k (hi v))) = _
        rw [hc k (hi v)]
        rfl
      have e' : subf (broadcast S128x256 (Scalar.ofBits (F := Ideal) .f32 0x3F800000#32)) xb (ix2 q v)
          = one - x (ix2 (⟨b0 + q.val, by have := q.isLt; omega⟩ : Fin 1024) v) := by
        refine (subf_apply _ _ _).trans ?_
        rw [hx q v]; rfl
      rw [e, e']
      rfl
  · refine (colBroadcast_apply _ _ k q).trans ?_
    rw [shapeCast_self]
    exact hw k

end Cert.KernelIdeal.RulePayload

end
-- ==== Proof.RuleAccum.lean ====
/-
  The output row, grid point by grid point.

  The grid is 8 row tiles by 8 rule tiles, the rule tile moving fastest: point `t` works on rows
  `128 (t / 8) …` and rules `64 (t % 8) …`. The output's block for a row tile stays in its staging buffer over the
  tile's eight points. By induction on the point, after point `t` the buffer's entry `q` is the bias plus the shares
  of the first `64 (t % 8 + 1)` rules at row `128 (t / 8) + q`: the first point of a row tile starts from the bias,
  every other adds its 64 shares to what the point before left.
-/
import proofs.«144816_j57303453663343_2_alg».proof.Proof.Gen.KernelIdeal.Frame
import proofs.«144816_j57303453663343_2_alg».proof.Proof.RuleSpec
import proofs.«144816_j57303453663343_2_alg».proof.Proof.RuleCases
import proofs.«144816_j57303453663343_2_alg».proof.Proof.RulePayload
import Idealize.ShloMosaic.Lib.Pipeline.Value
import Idealize.ShloMosaic.Lib.StableHlo.Run
import Idealize.ShloMosaic.Lib.ValueIdx

noncomputable section

open scoped BigOperators

namespace Cert.KernelIdeal.RuleAccum

open Cert.KernelIdeal Cert.KernelIdeal.Gen Cert.KernelIdeal.RuleCases Cert.KernelIdeal.RulePayload
open Idealize.ShloMosaic Idealize.ShloMosaic.TcCoe Idealize.SL.Sem Idealize.ShloMosaic.ValueIdx Cert.RuleSpec
open Idealize.ShloMosaic.Pipeline (Dat)

variable (m : (ℓ : Loc nD τ sig) → Buf (Elt Ideal) ℓ)

/-- The three argument arrays as launched. -/
abbrev X (c : Dev nD) : XArr := m ((c : Thread nD τ).loc main_arg0)
abbrev CJ (c : Dev nD) : CArr := m ((c : Thread nD τ).loc main_arg1)
abbrev Wt (c : Dev nD) : WArr := m ((c : Thread nD τ).loc main_arg2)

/-- Which block of its array each window is on at point `t`, decided once over the 64 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val / 8 :=
  (by decide +kernel : ∀ t : Fin grid0.N, _)

/-- The rows block at point `t` is rows `128 (t / 8) …` of `x`. -/
theorem blk0_apply (c : Dev nD) (t : Fin cfg0.N) (j : S128x256.Idx) (i : S1024x256.Idx)
    (h0 : (i 0).val = 128 * (t.val / 8) + (j 0).val) (h1 : (i 1).val = (j 1).val) :
    (iblk m c 0 t : Vec Ideal S128x256 .f32) j = X m c i := by
  obtain ⟨e0, e1, -⟩ := idx_facts t
  unfold iblk
  rw [View.read_apply]
  show V m c main_arg0 (((cfg0.win 0).blk t).view.emb j) = _
  rw [V_main_arg0 m c]
  refine congrArg _ (funext fun a => Fin.ext ?_)
  match a with
  | ⟨0, _⟩ =>
    show win0_0.index t (0 : Fin 2) * 128 + 1 * (j 0).val = (i 0).val
    rw [e0, h0]; omega
  | ⟨1, _⟩ =>
    show win0_0.index t (1 : Fin 2) * 256 + 1 * (j 1).val = (i 1).val
    rw [e1, h1]; omega

/-- The rules block at point `t` is rules `64 (t % 8) …` of `conj`. -/
theorem blk1_apply (c : Dev nD) (t : Fin cfg0.N) (j : S64x512.Idx) (i : S512x512.Idx)
    (h0 : (i 0).val = 64 * (t.val % 8) + (j 0).val) (h1 : (i 1).val = (j 1).val) :
    (iblk m c 1 t : Vec Ideal S64x512 .f32) j = CJ m c i := by
  obtain ⟨-, -, e2, e3, -⟩ := idx_facts t
  unfold iblk
  rw [View.read_apply]
  show V m c main_arg1 (((cfg0.win 1).blk t).view.emb j) = _
  rw [V_main_arg1 m c]
  refine congrArg _ (funext fun a => Fin.ext ?_)
  match a with
  | ⟨0, _⟩ =>
    show win0_1.index t (0 : Fin 2) * 64 + 1 * (j 0).val = (i 0).val
    rw [e2, h0]; omega
  | ⟨1, _⟩ =>
    show win0_1.index t (1 : Fin 2) * 512 + 1 * (j 1).val = (i 1).val
    rw [e3, h1]; omega

/-- The weights reach the region as a `[512, 1]` column: the host's reshape of the weight vector. -/
theorem V_main_v0 (c : Dev nD) :
    (V m c main_v0 : S512x1.Idx → Ideal .f32) = shapeCast S512x1 (Wt m c) shapeCasts_S512_S512x1 := by
  show StableHlo.after hostOps0 (fun b => m (c, b)) (Proc.devRef .tc main_v0) = _
  after_results
  rfl

/-- The weights block at point `t` is weights `64 (t % 8) …`. -/
theorem blk2_apply (c : Dev nD) (t : Fin cfg0.N) (j : S64x1.Idx) (i : S512.Idx)
    (h0 : (i 0).val = 64 * (t.val % 8) + (j 0).val) :
    (iblk m c 2 t : Vec Ideal S64x1 .f32) j = Wt m c i := by
  obtain ⟨-, -, -, -, e4, e5, -⟩ := idx_facts t
  unfold iblk
  rw [View.read_apply]
  show V m c main_v0 (((cfg0.win 2).blk t).view.emb j) = _
  rw [V_main_v0 m c]
  refine shapeCast_apply _ _ _ i ?_
  rw [Shape.rowMajor_val_one, Shape.rowMajor_val_two]
  show (i 0).val = (win0_2.index t (0 : Fin 2) * 64 + 1 * (j 0).val) * 1 + (win0_2.index t (1 : Fin 2) * 1 + 1 * (j 1).val)
  have hj : (j 1).val < 1 := (j 1).isLt
  rw [e4, e5, h0]; omega

/-- The last store's value at an entry: what the row held plus the partial sums. -/
theorem pay1_apply (v38 : FVec Ideal S1x128 .f32) (v39 : Vec Ideal S1x128 .f32) (q : Fin 128) :
    k0_pay1 (F := Ideal) v38 v39 (ix2 (0 : Fin 1) q) = v39 (ix2 (0 : Fin 1) q) + v38 (ix2 (0 : Fin 1) q) := by
  show addf (shapeCast S1x128 v39 shapeCasts_S1x128_S1x128) v38 (ix2 (0 : Fin 1) q) = _
  rw [shapeCast_self]
  rfl

/-- What point `t` adds at entry `q`: the shares of its 64 rules at its row. -/
theorem point_pay (c : Dev nD) (t : Fin cfg0.N) (hN : t.val < 64) (q : Fin 128) :
    k0_pay3 (F := Ideal) (iblk m c 0 t) (iblk m c 1 t) (iblk m c 2 t) (ix2 (0 : Fin 1) q)
      = ∑ k : Fin 64, one * (fit (X m c) (CJ m c) ⟨128 * (t.val / 8) + q.val, by have := q.isLt; omega⟩
            ⟨64 * (t.val % 8) + k.val, by have := k.isLt; omega⟩
          * Wt m c (ix1 (⟨64 * (t.val % 8) + k.val, by have := k.isLt; omega⟩ : Fin 512))) :=
  pay3_apply (X m c) (CJ m c) (Wt m c) (iblk m c 0 t) (iblk m c 1 t) (iblk m c 2 t) (128 * (t.val / 8)) (64 * (t.val % 8))
    (by omega) (by omega)
    (fun q v => blk0_apply m c t (ix2 q v) (ix2 (⟨128 * (t.val / 8) + q.val, by have := q.isLt; omega⟩ : Fin 1024) v) rfl rfl)
    (fun k l => blk1_apply m c t (ix2 k l) (ix2 (⟨64 * (t.val % 8) + k.val, by have := k.isLt; omega⟩ : Fin 512) l) rfl rfl)
    (fun k => blk2_apply m c t (ix2 k (0 : Fin 1)) (ix1 (⟨64 * (t.val % 8) + k.val, by have := k.isLt; omega⟩ : Fin 512)) rfl) q

/-- One point's step on the partial sums. -/
theorem point_step (c : Dev nD) (t : Fin cfg0.N) (hN : t.val < 64) (q : Fin 128) (prev : EReal)
    (hprev : prev = partialSum (X m c) (CJ m c) (Wt m c) ⟨128 * (t.val / 8) + q.val, by have := q.isLt; omega⟩ (64 * (t.val % 8))) :
    prev + k0_pay3 (F := Ideal) (iblk m c 0 t) (iblk m c 1 t) (iblk m c 2 t) (ix2 (0 : Fin 1) q)
      = partialSum (X m c) (CJ m c) (Wt m c) ⟨128 * (t.val / 8) + q.val, by have := q.isLt; omega⟩ (64 * (t.val % 8 + 1)) := by
  rw [hprev, point_pay m c t hN q]
  exact partialSum_step _ _ _ _ (t.val % 8) (by omega)

/-- At the first point of a row tile the row ends at the bias plus the point's shares. -/
theorem first_eq (c : Dev nD) (t : Fin cfg0.N) (h0 : t.val % 8 = 0) (q : Fin 128) :
    outsAt0 m c t.val t.isLt (ix2 (0 : Fin 1) q)
      = five + k0_pay3 (F := Ideal) (iblk m c 0 t) (iblk m c 1 t) (iblk m c 2 t) (ix2 (0 : Fin 1) q) := by
  rw [outsAt0_A m c t h0, out_A]
  exact pay1_apply (k0_pay3 (F := Ideal) (iblk m c 0 t) (iblk m c 1 t) (iblk m c 2 t)) (k0_pay2 (F := Ideal)) q

/-- At every other point it ends at what the point before left plus the point's shares. -/
theorem next_eq (c : Dev nD) (t : Fin cfg0.N) (h0 : ¬t.val % 8 = 0) (q : Fin 128) :
    outsAt0 m c t.val t.isLt (ix2 (0 : Fin 1) q)
      = outsAt0 m c (t.val - 1) (Nat.lt_of_le_of_lt (Nat.sub_le _ _) t.isLt) (ix2 (0 : Fin 1) q)
        + k0_pay3 (F := Ideal) (iblk m c 0 t) (iblk m c 1 t) (iblk m c 2 t) (ix2 (0 : Fin 1) q) := by
  rw [outsAt0_B m c t h0, out_B]
  exact pay1_apply (k0_pay3 (F := Ideal) (iblk m c 0 t) (iblk m c 1 t) (iblk m c 2 t))
    (outsAt0 m c (t.val - 1) (Nat.lt_of_le_of_lt (Nat.sub_le _ _) t.isLt)) q

/-- THE RUNNING SUM: after point `n` the output row's entry `q` is the bias plus the shares of the first
    `64 (n % 8 + 1)` rules at row `128 (n / 8) + q`. -/
theorem outsAt_eq (c : Dev nD) (n : ℕ) : ∀ (h : n < cfg0.N) (q : Fin 128),
    outsAt0 m c n h (ix2 (0 : Fin 1) q)
      = partialSum (X m c) (CJ m c) (Wt m c)
          ⟨128 * (n / 8) + q.val, by have hn : n < 64 := lt_of_lt_of_eq h (show cfg0.N = 64 from N_0); have := q.isLt; omega⟩
          (64 * (n % 8 + 1)) := by
  induction n with
  | zero =>
    intro h q
    refine (first_eq m c ⟨0, h⟩ rfl q).trans ?_
    refine point_step m c ⟨0, h⟩ (show (0 : ℕ) < 64 by omega) q five ?_
    exact (partialSum_zero _ _ _ _).symm
  | succ n ih =>
    intro h q
    have hN : n + 1 < 64 := lt_of_lt_of_eq h (show cfg0.N = 64 from N_0)
    by_cases h0 : (n + 1) % 8 = 0
    · refine (first_eq m c ⟨n + 1, h⟩ h0 q).trans ?_
      refine point_step m c ⟨n + 1, h⟩ hN q five ?_
      show five = partialSum _ _ _ _ (64 * ((n + 1) % 8))
      rw [h0]
      exact (partialSum_zero _ _ _ _).symm
    · refine (next_eq m c ⟨n + 1, h⟩ h0 q).trans ?_
      refine point_step m c ⟨n + 1, h⟩ hN q _ ?_
      show outsAt0 m c n _ (ix2 (0 : Fin 1) q) = partialSum _ _ _ _ (64 * ((n + 1) % 8))
      rw [ih _ q]
      have e2 : 64 * (n % 8 + 1) = 64 * ((n + 1) % 8) := by omega
      rw [e2]
      exact congrArg (fun b => partialSum (X m c) (CJ m c) (Wt m c) b (64 * ((n + 1) % 8)))
        (Fin.ext (by show 128 * (n / 8) + q.val = 128 * ((n + 1) / 8) + q.val; omega))

end Cert.KernelIdeal.RuleAccum

end
-- ==== Proof.RuleFinal.lean ====
/-
  From the output's blocks to the result array, and the kernel's run.

  A row tile's block is written back after its eighth point, when it holds the bias plus the shares of all 512
  rules. The eight written-back blocks tile the `[1, 1024]` array the region writes, so that array ends at the full
  sums, entry by entry; the host's reshape after the region reads it as the result vector of length 1024, which is
  the specified value.
-/
import proofs.«144816_j57303453663343_2_alg».proof.Proof.Gen.KernelIdeal.Frame
import proofs.«144816_j57303453663343_2_alg».proof.Proof.RuleSpec
import proofs.«144816_j57303453663343_2_alg».proof.Proof.RuleAccum
import Idealize.ShloMosaic.Lib.Pipeline.Value
import Idealize.ShloMosaic.Lib.StableHlo.Run
import Idealize.ShloMosaic.Lib.ValueIdx

noncomputable section

open scoped BigOperators

namespace Cert.KernelIdeal.RuleFinal

open Cert.KernelIdeal Cert.KernelIdeal.Gen Cert.KernelIdeal.RuleAccum
open Idealize.ShloMosaic Idealize.ShloMosaic.TcCoe Idealize.SL.Sem Idealize.ShloMosaic.ValueIdx Cert.RuleSpec
open Idealize.ShloMosaic.Pipeline (Dat)

variable (m : (ℓ : Loc nD τ sig) → Buf (Elt Ideal) ℓ) (ρ : Dev nD → PrngReg)

/-- The `[1, 1024]` array of full sums: entry `(0, b)` is the bias plus the shares of all 512 rules at row `b`. -/
def row (c : Dev nD) : S1x1024.Idx → Ideal .f32 :=
  fun i => partialSum (X m c) (CJ m c) (Wt m c) ⟨(i 1).val, (i 1).isLt⟩ 512

/-- What a row tile's last point writes back is its block of the full sums. -/
theorem flushed_eq (c : Dev nD) (t : Fin cfg0.N) (hf : (cfg0.win 3).flush t = true) :
    (dats m 0 c).flushed 3 t = ((cfg0.win 3).blk t).view.read (Elt Ideal) (row m c) := by
  have h7 : t.val % 8 = 7 := (flush0_3 t).mp hf
  obtain ⟨-, -, -, -, -, -, e6, e7⟩ := idx_facts t
  show (cfg0.win 3).cut (grid0.coords t) ((dats m 0 c).after 3 t) = _
  rw [after0_3]
  funext j
  rw [View.read_apply]
  obtain ⟨u, q, rfl⟩ : ∃ (u : Fin 1) (q : Fin 128), j = ix2 u q := ⟨j 0, j 1, eq_ix2 j⟩
  obtain rfl : u = 0 := Subsingleton.elim _ _
  show outsAt0 m c t.val t.isLt (ix2 (0 : Fin 1) q) = row m c (((cfg0.win 3).blk t).view.emb (ix2 (0 : Fin 1) q))
  rw [outsAt_eq m c t.val t.isLt q]
  unfold row
  have e : 64 * (t.val % 8 + 1) = 512 := by omega
  rw [e]
  refine congrArg (fun b => partialSum (X m c) (CJ m c) (Wt m c) b 512) (Fin.ext ?_)
  show 128 * (t.val / 8) + q.val = win0_3.index t (1 : Fin 2) * 128 + 1 * q.val
  rw [e7]; omega

/-- An index of the array is in point `t`'s block iff each coordinate is in the block's range on its axis. -/
theorem mem_blk (t : Fin cfg0.N) (i : S1x1024.Idx) :
    i ∈ ((cfg0.win 3).blk t).view.set
      ↔ ∀ a : Fin 2, win0_3.index t a * S1x128.size a ≤ (i a).val ∧ (i a).val < win0_3.index t a * S1x128.size a + S1x128.size a := by
  show i ∈ ((View.whole main_v1).slice (win0_3.rect t)).set ↔ _
  rw [View.set_slice_whole, Rect.mem_set_unit]
  exact Iff.rfl

/-- Every entry of the array is in the block some row tile's last point writes back. -/
theorem cover (i : S1x1024.Idx) :
    ∃ t : Fin cfg0.N, (cfg0.win 3).flush t = true ∧ i ∈ ((cfg0.win 3).blk t).view.set := by
  have hi0 : (i 0).val < 1 := (i 0).isLt
  have hi1 : (i 1).val < 1024 := (i 1).isLt
  have hN : cfg0.N = 64 := N_0
  have hlt : 8 * ((i 1).val / 128) + 7 < cfg0.N := by rw [hN]; omega
  obtain ⟨-, -, -, -, -, -, e6, e7⟩ := idx_facts ⟨8 * ((i 1).val / 128) + 7, hlt⟩
  refine ⟨⟨8 * ((i 1).val / 128) + 7, hlt⟩, (flush0_3 _).mpr (by show (8 * ((i 1).val / 128) + 7) % 8 = 7; omega), ?_⟩
  rw [mem_blk]
  intro a
  match a with
  | ⟨0, _⟩ =>
    show win0_3.index ⟨8 * ((i 1).val / 128) + 7, hlt⟩ (0 : Fin 2) * 1 ≤ (i 0).val
      ∧ (i 0).val < win0_3.index ⟨8 * ((i 1).val / 128) + 7, hlt⟩ (0 : Fin 2) * 1 + 1
    rw [e6]; omega
  | ⟨1, _⟩ =>
    show win0_3.index ⟨8 * ((i 1).val / 128) + 7, hlt⟩ (1 : Fin 2) * 128 ≤ (i 1).val
      ∧ (i 1).val < win0_3.index ⟨8 * ((i 1).val / 128) + 7, hlt⟩ (1 : Fin 2) * 128 + 128
    rw [e7]
    show (8 * ((i 1).val / 128) + 7) / 8 * 128 ≤ (i 1).val ∧ (i 1).val < (8 * ((i 1).val / 128) + 7) / 8 * 128 + 128
    omega

/-- So the array the region writes ends at the full sums. -/
theorem final (c : Dev nD) : (dats m 0 c).arrAt 3 cfg0.N = row m c :=
  (dats m 0 c).arrAt_eq_of_cover 3 (row m c) (flushed_eq m c) (cover)

/-- The result vector: the host's reshape of that array, which is the specified value. -/
theorem tail_eq (c : Dev nD) :
    Pipeline.afterTail₀ cfgs (dats m) 0 (V0 m) [hostOps1] c main_v2 = G (X m c) (CJ m c) (Wt m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = row m c :=
    (Pipeline.withArrays_arr spec0 launch0.win.arr_inj c _ _ 3).trans (final m c)
  funext i
  obtain ⟨b, rfl⟩ : ∃ b : Fin 1024, i = ix1 b := ⟨i 0, eq_ix1 i⟩
  show shapeCast S1024 (Pipeline.withArrays (cfgs 0).spec c (V0 m c) (fun w => (dats m 0 c).arrAt w (cfgs 0).N)
    (Proc.devRef .tc main_v1)) shapeCasts_S1x1024_S1024 (ix1 b) = _
  rw [hA]
  refine (shapeCast_apply (row m c) shapeCasts_S1x1024_S1024 (ix1 b) (ix2 (0 : Fin 1) b) ?_).trans rfl
  rw [Shape.rowMajor_val_two, Shape.rowMajor_val_one]
  show 0 * 1024 + b.val = b.val
  omega

/-- THE KERNEL'S RUN: every weakly fair execution terminates with the result vector at the specified value and the
    three arguments unchanged. -/
theorem run : θ_run defs (onTc (τ := τ) (main (F := Ideal))) ⟨m, fun _ => 0, ρ⟩ fun r => ∀ c : Dev nD,
      r.2.mem ((c.tc : Thread nD τ).loc main_v2) = G (X m c) (CJ m c) (Wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RuleFinal

end
-- ==== Proof.lean ====
/-
  A fuzzy-rule network. For each of 1024 batch rows and 512 rules, the fit of the rule is the minimum over its 512
  literals of `σ(conj) · lit + (1 - σ(conj))`, the literal row being `x` followed by `1 - x` and `σ` the logistic
  function; the result at a row is `5` plus the sum over the rules of weight times fit.

  The kernel tiles the rows by 128 and the rules by 64. At a tile it splits each rule's minimum into the two halves
  of the literal row, weights the fits, sums 64 rules at a time as a product with a row of ones, and adds that to an
  output block that stays resident over a row tile's eight steps, started from the bias at the first. The reference
  forms one minimum over 512 literals and one sum over 512 rules.

  Over the extended reals the two are one function of the three arrays: a minimum splits over a partition of its
  index set, sums regroup freely, `1 · a = a`, and the kernel's logistic function is by definition the reference's
  `1 / (1 + exp (-z))`. These laws hold at the infinities too, so the inputs' finiteness is not used.
-/
import proofs.«144816_j57303453663343_2_alg».proof.Defs
import proofs.«144816_j57303453663343_2_alg».proof.Proof.Gen.Kernel
import proofs.«144816_j57303453663343_2_alg».proof.Proof.Gen.Kernel.Skeleton
import proofs.«144816_j57303453663343_2_alg».proof.Proof.Gen.Kernel.Launch
import proofs.«144816_j57303453663343_2_alg».proof.Proof.Gen.Kernel.Points
import proofs.«144816_j57303453663343_2_alg».proof.Proof.Gen.Kernel.Frame
import proofs.«144816_j57303453663343_2_alg».proof.Proof.Gen.KernelIdeal
import proofs.«144816_j57303453663343_2_alg».proof.Proof.Gen.KernelIdeal.Skeleton
import proofs.«144816_j57303453663343_2_alg».proof.Proof.Gen.KernelIdeal.Launch
import proofs.«144816_j57303453663343_2_alg».proof.Proof.Gen.KernelIdeal.Points
import proofs.«144816_j57303453663343_2_alg».proof.Proof.Gen.KernelIdeal.Frame
import proofs.«144816_j57303453663343_2_alg».proof.Proof.Gen.ReferenceIdeal
import proofs.«144816_j57303453663343_2_alg».proof.Proof.Gen.Pre_finite_inputs
import proofs.«144816_j57303453663343_2_alg».proof.Proof.RefRunPatched
import proofs.«144816_j57303453663343_2_alg».proof.Proof.RefReadPatched
import proofs.«144816_j57303453663343_2_alg».proof.Proof.RuleRef
import proofs.«144816_j57303453663343_2_alg».proof.Proof.RuleFinal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The kernel's text read over the extended reals is the text itself: nothing was rewritten. -/
theorem preserves : Cert.preserves_Kernel_KernelIdeal := trivial

/-- Both programs end with the result vector at `G` of the three arrays: the kernel by its accumulation over the
    grid, the reference operation by operation; and the arrays agree. -/
theorem algebraic : Cert.algebraic_KernelIdeal_ReferenceIdeal := by
  intro m ρ m' ρ' _ hagree
  refine ⟨fun c => Cert.RuleSpec.G (Cert.KernelIdeal.RuleAccum.X m c) (Cert.KernelIdeal.RuleAccum.CJ m c)
    (Cert.KernelIdeal.RuleAccum.Wt m c), Cert.KernelIdeal.RuleFinal.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v25_eq, Cert.RuleRef.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
